-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S16384x128 : Shape := ⟨2, ![16384, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S16384x128 : S_.BroadcastsInDim S16384x128 (![] : Fin 0 → Fin S16384x128.rank)
  reducesTo_S16384x128_S_d0_1 : S16384x128.ReducesTo [0, 1] S_

variable [Facts]

def fn {F : FTy → Type} [FloatOps F] (main_arg0 : FVec F S8192x128 .f32) (main_arg1 : FVec F S16384x128 .f32) (main_arg2 : FVec F S16384x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S16384x128 .f32 := Host.absf main_arg1
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  let main_v9 : FVec F S16384x128 .f32 := Host.absf main_arg2
  let main_cst_2 : FVec F S_ .f32 := constant S_ .f32 0x7F800000#32
  let main_v10 : FVec F S16384x128 .f32 := broadcastInDim S16384x128 ![] bcast_S_S16384x128 main_cst_2
  let main_v11 : IVec S16384x128 1 := cmpf .olt main_v9 main_v10
  let main_c_3 : IVec S_ 1 := constantI S_ 1 1#1
  let main_v12 : IVec S_ 1 := (fun x v => Host.reduce IntOp.andi x v reducesTo_S16384x128_S_d0_1 h_S_) main_v11 main_c_3
  let main_v13 : IVec S_ 1 := andi main_v8 main_v12
  main_v13
-- ==== Kernel.lean ====
abbrev S8192x128 : Shape := ⟨2, ![8192, 128]⟩
abbrev S16384x128 : Shape := ⟨2, ![16384, 128]⟩
abbrev S4096x128 : Shape := ⟨2, ![4096, 128]⟩
abbrev S512x128 : Shape := ⟨2, ![512, 128]⟩
abbrev S4096 : Shape := ⟨1, ![4096]⟩
abbrev S4096x1 : Shape := ⟨2, ![4096, 1]⟩
abbrev S512 : Shape := ⟨1, ![512]⟩
abbrev S512x1 : Shape := ⟨2, ![512, 1]⟩
abbrev S128x512 : Shape := ⟨2, ![128, 512]⟩
abbrev S4096x512 : Shape := ⟨2, ![4096, 512]⟩

abbrev nBuf : Space → Nat
  | .hbm => 4
  | .vmem => 9
  | .smem => 0
  | _ => 0

abbrev bufTy : (tb : Table) → Fin (tcTables nBuf tb) → BufTy
  | .hbm, ⟨0, _⟩ => ⟨S8192x128, .f32⟩
  | .hbm, ⟨1, _⟩ => ⟨S16384x128, .f32⟩
  | .hbm, ⟨2, _⟩ => ⟨S16384x128, .f32⟩
  | .hbm, ⟨3, _⟩ => ⟨S8192x128, .f32⟩
  | .local _ .vmem, ⟨0, _⟩ => ⟨S4096x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S4096x128, .bf16⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v27 : BitVec 1 := Scalar.cmpi .eq arg1 c31_i32
  let v28 : BitVec 32 := Scalar.extui v27
  let c0_i32_13 : BitVec 32 := 0#32
  let v29 : BitVec 1 := Scalar.cmpi .ne v28 c0_i32_13
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  reduces_S4096x128_S4096 : S4096x128.Reduces [1] S4096
  shapeCasts_S4096_S4096x1 : S4096.ShapeCasts S4096x1
  broadcasts_S4096x1_S4096x128 : S4096x1.Broadcasts S4096x128
  bitsLt_bf16_f32 : FTy.bits .bf16 < FTy.bits .f32
  packedbf16_S4096x128_S4096x128_0_0 : (Rect.unit (s := S4096x128) ![0, 0] S4096x128.size inb_S4096x128_S4096x128_0_0).PackedRows (EltTy.packing .bf16)
  inb_S512x128_S512x128_0_0 : ∀ a, (![0, 0] : Fin 2 → Nat) a + S512x128.size a ≤ S512x128.size a
  h_S512x128 : 0 < S512x128.numel
  reduces_S512x128_S512 : S512x128.Reduces [1] S512
  shapeCasts_S512_S512x1 : S512.ShapeCasts S512x1
  broadcasts_S512x1_S512x128 : S512x1.Broadcasts S512x128
  transposes_S512x128_p1_0_S128x512 : S512x128.Transposes [1, 0] S128x512
  dot_S4096x128_S128x512_S4096x512_1_0_0_1_n_n_wf : DotDims.WF S4096x128 S128x512 S4096x512 [1] [0] [0] [1] [] []
  dot_S4096x512_S512x128_S4096x128_1_0_0_1_n_n_wf : DotDims.WF S4096x512 S512x128 S4096x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S8192x128.size a
  hwx0_0 : ∀ i : grid0.Coords, EltTy.bits .f32 = 32 ∨ (Rect.block (s := S8192x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S16384x128.size a
  hwx0_1 : ∀ i : grid0.Coords, EltTy.bits .f32 = 32 ∨ (Rect.block (s := S16384x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S16384x128.size a
  hwx0_2 : ∀ i : grid0.Coords, EltTy.bits .f32 = 32 ∨ (Rect.block (s := S16384x128) S512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S8192x128.size a
  hwx0_3 : ∀ i : grid0.Coords, EltTy.bits .f32 = 32 ∨ (Rect.block (s := S8192x128) S4096x128.size (cc0_transform_3 i) (hinb0_3 i)).WholeWords (EltTy.packing .f32)

variable [Facts₀]

def dot_S4096x128_S128x512_S4096x512_1_0_0_1_n_n : DotDims S4096x128 S128x512 S4096x512 where
  lhsContracting := [1]
  rhsContracting := [0]
  lhsNonContracting := [0]
  rhsNonContracting := [1]
  lhsBatch := []
  rhsBatch := []
  wf := dot_S4096x128_S128x512_S4096x512_1_0_0_1_n_n_wf
def dot_S4096x512_S512x128_S4096x128_1_0_0_1_n_n : DotDims S4096x512 S512x128 S4096x128 where
  lhsContracting := [1]
  rhsContracting := [0]
  lhsNonContracting := [0]
  rhsNonContracting := [1]
  lhsBatch := []
  rhsBatch := []
  wf := dot_S4096x512_S512x128_S4096x128_1_0_0_1_n_n_wf

abbrev win0_0 : Pipeline.Window sig grid0 :=
  Pipeline.Window.ofSpec (Memref.whole main_arg0) S4096x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S4096x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x128 : Shape := ⟨2, ![8192, 128]⟩
abbrev S16384x128 : Shape := ⟨2, ![16384, 128]⟩
abbrev S_ : Shape := ⟨0, ![]⟩
abbrev S8192 : Shape := ⟨1, ![8192]⟩
abbrev S8192x1 : Shape := ⟨2, ![8192, 1]⟩
abbrev S16384 : Shape := ⟨1, ![16384]⟩
abbrev S16384x1 : Shape := ⟨2, ![16384, 1]⟩
abbrev S8192x16384 : Shape := ⟨2, ![8192, 16384]⟩

abbrev nBuf : Space → Nat
  | .hbm => 31
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S16384x128, .f32⟩
  | .hbm, ⟨2, _⟩ => ⟨S16384x128, .f32⟩
  | .hbm, ⟨3, _⟩ => ⟨S8192x128, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x128, .f32⟩
  | .hbm, ⟨12, _⟩ => ⟨S8192x128, .f32⟩
  | .hbm, ⟨13, _⟩ => ⟨S16384x128, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x128, .f32⟩
  | .hbm, ⟨22, _⟩ => ⟨S16384x128, .f32⟩
  | .hbm, ⟨23, _⟩ => ⟨S8192x16384, .f32⟩
  | .hbm, ⟨24, _⟩ => ⟨S8192x16384, .f32⟩
  | .hbm, ⟨25, _⟩ => ⟨S8192x16384, .f32⟩
  | .hbm, ⟨26, _⟩ => ⟨S_, .f32⟩
  | .hbm, ⟨27, _⟩ => ⟨S8192x16384, .f32⟩
  | .hbm, ⟨28, _⟩ => ⟨S8192x16384, .f32⟩
  | .hbm, ⟨29, _⟩ => ⟨S8192x16384, .f32⟩
  | .hbm, ⟨30, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  reducesTo_S16384x128_S16384_d1 : S16384x128.ReducesTo [1] S16384
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x128_0_1 : S16384x1.BroadcastsInDim S16384x128 (![0, 1] : Fin 2 → Fin S16384x128.rank)
  bcast_S_S8192x16384 : S_.BroadcastsInDim S8192x16384 (![] : Fin 0 → Fin S8192x16384.rank)
  dot_S8192x128_S16384x128_S8192x16384_1_1_0_0_n_n_wf : DotDims.WF S8192x128 S16384x128 S8192x16384 [1] [1] [0] [0] [] []
  dot_S8192x16384_S16384x128_S8192x128_1_0_0_1_n_n_wf : DotDims.WF S8192x16384 S16384x128 S8192x128 [1] [0] [0] [1] [] []

variable [Facts₀]

def dot_S8192x128_S16384x128_S8192x16384_1_1_0_0_n_n : DotDims S8192x128 S16384x128 S8192x16384 where
  lhsContracting := [1]
  rhsContracting := [1]
  lhsNonContracting := [0]
  rhsNonContracting := [0]
  lhsBatch := []
  rhsBatch := []
  wf := dot_S8192x128_S16384x128_S8192x16384_1_1_0_0_n_n_wf
def dot_S8192x16384_S16384x128_S8192x128_1_0_0_1_n_n : DotDims S8192x16384 S16384x128 S8192x128 where
  lhsContracting := [1]
  rhsContracting := [0]
  lhsNonContracting := [0]
  rhsNonContracting := [1]
  lhsBatch := []
  rhsBatch := []
  wf := dot_S8192x16384_S16384x128_S8192x128_1_0_0_1_n_n_wf

class Facts : Prop extends Facts₀ where

variable [Facts]
-- ==== Proof.EchoSpec.lean ====
/-
  The function both programs compute, on the extended reals, index by index.

  A row of a matrix with 128 columns has a clamped length: the larger of its euclidean norm (the square root of the
  sum of its squares) and a fixed positive floor. A row divided by its clamped length is its unit row. The score of
  query row n against stored row j is the inner product of their unit rows; the activation is the score cubed; and
  the result at (n, c) is the sum, over all 16384 stored rows j, of the activation of (n, j) times the echo matrix
  at (j, c).
-/
import Idealize.ShloMosaic.PureOps.Ideal
import Idealize.ShloMosaic.Lib.ValueIdx

noncomputable section

namespace Cert.EchoSpec

open Idealize.ShloMosaic Idealize.ShloMosaic.ValueIdx

/-- A matrix of extended reals. -/
abbrev Mat (r c : ℕ) : Type := (⟨2, ![r, c]⟩ : Shape).Idx → EReal

/-- The floor under a row's length: the extended real the single-precision pattern of 1e-12 denotes. -/
abbrev floorLen : EReal := Ideal.ofBits .f32 0x2B8CBCCC#32

/-- Row r's clamped length: the larger of its euclidean norm and the floor. -/
def rowLen {R : ℕ} (A : Mat R 128) (r : Fin R) : EReal :=
  max (Ideal.sqrt (∑ k : Fin 128, A (ix2 r k) * A (ix2 r k))) floorLen

/-- Entry k of row r divided by the row's clamped length. -/
def unitRow {R : ℕ} (A : Mat R 128) (r : Fin R) (k : Fin 128) : EReal :=
  Ideal.div (A (ix2 r k)) (rowLen A r)

/-- The inner product of a row of unit entries u with the unit row j of D. -/
def scoreOf {R : ℕ} (u : Fin 128 → EReal) (D : Mat R 128) (j : Fin R) : EReal :=
  ∑ k : Fin 128, u k * unitRow D j k

/-- The score of query row n against stored row j: the inner product of their unit rows. -/
def score (X : Mat 8192 128) (D : Mat 16384 128) (n : Fin 8192) (j : Fin 16384) : EReal :=
  scoreOf (unitRow X n) D j

/-- The activation: the cube, by two products. -/
def cube (s : EReal) : EReal := s * s * s

/-- The result: at (n, c), the sum over the stored rows j of the cubed score of (n, j) times E at (j, c). -/
def echo (X : Mat 8192 128) (D E : Mat 16384 128) : Mat 8192 128 :=
  fun i => ∑ j : Fin 16384, cube (score X D (i 0) j) * E (ix2 j (i 1))

end Cert.EchoSpec

end
-- ==== Proof.LibColumnLayout.lean ====
/-
  COLUMN FORMS OF THE LAYOUT OPERATIONS, READ AT AN INDEX GIVEN BY COORDINATES. A sum over the last axis kept as a
  column (`keepdims`) is a vector `[a]` cast to `[a, 1]` and then broadcast along the new unit axis to `[a, b]`:
  at `(i, j)` both read the vector at `i`. The two lemmas below say so for indices written `ix1` / `ix2`, for any
  element type and any extents; they are the column counterparts of the row forms `shapeCast_a_1a_apply` and
  `broadcastTo_1b_ab_apply`.
-/
import Idealize.ShloMosaic.Lib.Pipeline.Value
import Idealize.ShloMosaic.Lib.ValueIdx

namespace Idealize.ShloMosaic.ColumnLayout

open Idealize.ShloMosaic Idealize.ShloMosaic.ValueIdx

variable {α : Type}

/-- An `[a]` array cast to the column `[a, 1]` reads, at `(i, u)`, the operand at `i`, whatever the unit coordinate
    `u`: the two row-major positions are `i` and `i * 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry in row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ColumnLayout
-- ==== Proof.UnitRows.lean ====
/-
  A block of rows normalised by vector operations is the block's unit rows.

  The kernel normalises a block x of R rows and 128 columns in six steps: square every entry, sum each row's squares
  into a vector of R entries, stand that vector up as a column, take square roots, clamp the column from below by the
  floor, spread the column across the 128 columns, and divide x by the result. Read at row p and column q this is
  x(p, q) divided by the clamped length of row p, whatever R is.
-/
import Idealize.ShloMosaic.PureOps.Ideal.Laws
import Idealize.ShloMosaic.Lib.Pipeline.Value
import Idealize.ShloMosaic.Lib.ValueIdx
import proofs.«153603_j37211596652565_2_alg».proof.Proof.EchoSpec
import proofs.«153603_j37211596652565_2_alg».proof.Proof.LibColumnLayout

noncomputable section

namespace Cert.EchoKernel

open Idealize.ShloMosaic Idealize.ShloMosaic.ValueIdx Cert.EchoSpec

/-- A row sum of a matrix with 128 columns, read at row r, is the sum over the row's 128 entries. -/
theorem rowSum_apply {R : ℕ} (src : FVec Ideal ⟨2, ![R, 128]⟩ .f32)
    (h : (⟨2, ![R, 128]⟩ : Shape).Reduces [1] ⟨1, ![R]⟩) (hφ : FKind.Formats .f32)
    (hacc : (0x00000000#32 : BitVec 32) = FKind.add.neutral .f32 hφ) (r : Fin R) :
    multiReduction .add [1] ⟨1, ![R]⟩ src 0x00000000#32 h hφ hacc (ix1 r) = ∑ k : Fin 128, src (ix2 r k) := by
  refine (Ideal.multiReduction_add_single src 0x00000000#32 h hφ hacc (ix1 r)).trans ?_
  refine Finset.sum_congr rfl fun k _ => ?_
  exact congrArg src (funext fun a => Fin.ext (by match a with | ⟨0, _⟩ => rfl | ⟨1, _⟩ => rfl))

/-- The normalised block, entry by entry: x(p, q) over the clamped length of row p. -/
theorem normalised_apply {R : ℕ} (x : FVec Ideal ⟨2, ![R, 128]⟩ .f32)
    (h1 : (⟨2, ![R, 128]⟩ : Shape).Reduces [1] ⟨1, ![R]⟩) (hφ : FKind.Formats .f32)
    (hacc : (0x00000000#32 : BitVec 32) = FKind.add.neutral .f32 hφ)
    (h2 : (⟨1, ![R]⟩ : Shape).ShapeCasts ⟨2, ![R, 1]⟩) (h3 : (⟨2, ![R, 1]⟩ : Shape).Broadcasts ⟨2, ![R, 128]⟩)
    (p : Fin R) (q : Fin 128) :
    divf x (broadcastTo ⟨2, ![R, 128]⟩
        (maximumf (sqrt (shapeCast ⟨2, ![R, 1]⟩ (multiReduction .add [1] ⟨1, ![R]⟩ (mulf x x) 0x00000000#32 h1 hφ hacc) h2))
          (broadcast ⟨2, ![R, 1]⟩ (Scalar.ofBits (F := Ideal) .f32 0x2B8CBCCC#32))) h3) (ix2 p q)
      = unitRow x p q := by
  show Ideal.div (x (ix2 p q)) (broadcastTo ⟨2, ![R, 128]⟩ _ h3 (ix2 p q)) = Ideal.div (x (ix2 p q)) (rowLen x p)
  refine congrArg (Ideal.div (x (ix2 p q))) ?_
  rw [ColumnLayout.broadcastTo_a1_ab_apply]
  show max (Ideal.sqrt (shapeCast ⟨2, ![R, 1]⟩ _ h2 (ix2 p (0 : Fin 1)))) floorLen = _
  rw [ColumnLayout.shapeCast_a_a1_apply, rowSum_apply]
  rfl

end Cert.EchoKernel

end
-- ==== Proof.PayloadAt.lean ====
/-
  What the kernel body stores, read at an entry.

  The body has three stored values. The first is the zero block the accumulator is reset to. The second is the query
  block normalised: at (p, q) the entry of the query block over the clamped length of its row p. The third is the
  accumulator's update: at (p, q) the old accumulator plus, over the 512 stored rows j of the current block, the cube
  of the inner product of normalised query row p with unit row j of the D block, times the E block at (j, q). The two
  matrix products are into zero accumulators, so each is the plain sum over its contraction index; the transpose in
  front of the first only swaps the coordinates of the D block, and a change of float format is the identity.
-/
import proofs.«153603_j37211596652565_2_alg».proof.Proof.Gen.KernelIdeal.Skeleton
import proofs.«153603_j37211596652565_2_alg».proof.Proof.UnitRows
import Idealize.ShloMosaic.Lib.ValueLayout

noncomputable section

namespace Cert.EchoKernel

open Cert.KernelIdeal Cert.KernelIdeal.Gen
open Idealize.ShloMosaic Idealize.ShloMosaic.ValueIdx Cert.EchoSpec

/-! ## The two matrix products' operand indices -/

theorem dot_S4096x128_S128x512_S4096x512_1_0_0_1_n_n_lhs0 (i : S4096x512.Idx) (c : dot_S4096x128_S128x512_S4096x512_1_0_0_1_n_n.contr.Idx) : (dot_S4096x128_S128x512_S4096x512_1_0_0_1_n_n.lhsIdx i c 0).val = (i 0).val := by
  unfold DotDims.lhsIdx
  rw [dif_neg (show ¬(0 : Fin S4096x128.rank) ∈ dot_S4096x128_S128x512_S4096x512_1_0_0_1_n_n.lhsBatch by decide), dif_pos (show (0 : Fin S4096x128.rank) ∈ dot_S4096x128_S128x512_S4096x512_1_0_0_1_n_n.lhsNonContracting by decide)]
  rfl
theorem dot_S4096x128_S128x512_S4096x512_1_0_0_1_n_n_lhs1 (i : S4096x512.Idx) (c : dot_S4096x128_S128x512_S4096x512_1_0_0_1_n_n.contr.Idx) : (dot_S4096x128_S128x512_S4096x512_1_0_0_1_n_n.lhsIdx i c 1).val = (c ⟨0, by decide⟩).val :=
  dot_S4096x128_S128x512_S4096x512_1_0_0_1_n_n.lhsIdx_val_of_single rfl i c
theorem dot_S4096x128_S128x512_S4096x512_1_0_0_1_n_n_rhs0 (i : S4096x512.Idx) (c : dot_S4096x128_S128x512_S4096x512_1_0_0_1_n_n.contr.Idx) : (dot_S4096x128_S128x512_S4096x512_1_0_0_1_n_n.rhsIdx i c 0).val = (c ⟨0, by decide⟩).val :=
  dot_S4096x128_S128x512_S4096x512_1_0_0_1_n_n.rhsIdx_val_of_single rfl i c
theorem dot_S4096x128_S128x512_S4096x512_1_0_0_1_n_n_rhs1 (i : S4096x512.Idx) (c : dot_S4096x128_S128x512_S4096x512_1_0_0_1_n_n.contr.Idx) : (dot_S4096x128_S128x512_S4096x512_1_0_0_1_n_n.rhsIdx i c 1).val = (i 1).val := by
  unfold DotDims.rhsIdx
  rw [dif_neg (show ¬(1 : Fin S128x512.rank) ∈ dot_S4096x128_S128x512_S4096x512_1_0_0_1_n_n.rhsBatch by decide), dif_pos (show (1 : Fin S128x512.rank) ∈ dot_S4096x128_S128x512_S4096x512_1_0_0_1_n_n.rhsNonContracting by decide)]
  rfl

theorem dot_S4096x512_S512x128_S4096x128_1_0_0_1_n_n_lhs0 (i : S4096x128.Idx) (c : dot_S4096x512_S512x128_S4096x128_1_0_0_1_n_n.contr.Idx) : (dot_S4096x512_S512x128_S4096x128_1_0_0_1_n_n.lhsIdx i c 0).val = (i 0).val := by
  unfold DotDims.lhsIdx
  rw [dif_neg (show ¬(0 : Fin S4096x512.rank) ∈ dot_S4096x512_S512x128_S4096x128_1_0_0_1_n_n.lhsBatch by decide), dif_pos (show (0 : Fin S4096x512.rank) ∈ dot_S4096x512_S512x128_S4096x128_1_0_0_1_n_n.lhsNonContracting by decide)]
  rfl
theorem dot_S4096x512_S512x128_S4096x128_1_0_0_1_n_n_lhs1 (i : S4096x128.Idx) (c : dot_S4096x512_S512x128_S4096x128_1_0_0_1_n_n.contr.Idx) : (dot_S4096x512_S512x128_S4096x128_1_0_0_1_n_n.lhsIdx i c 1).val = (c ⟨0, by decide⟩).val :=
  dot_S4096x512_S512x128_S4096x128_1_0_0_1_n_n.lhsIdx_val_of_single rfl i c
theorem dot_S4096x512_S512x128_S4096x128_1_0_0_1_n_n_rhs0 (i : S4096x128.Idx) (c : dot_S4096x512_S512x128_S4096x128_1_0_0_1_n_n.contr.Idx) : (dot_S4096x512_S512x128_S4096x128_1_0_0_1_n_n.rhsIdx i c 0).val = (c ⟨0, by decide⟩).val :=
  dot_S4096x512_S512x128_S4096x128_1_0_0_1_n_n.rhsIdx_val_of_single rfl i c
theorem dot_S4096x512_S512x128_S4096x128_1_0_0_1_n_n_rhs1 (i : S4096x128.Idx) (c : dot_S4096x512_S512x128_S4096x128_1_0_0_1_n_n.contr.Idx) : (dot_S4096x512_S512x128_S4096x128_1_0_0_1_n_n.rhsIdx i c 1).val = (i 1).val := by
  unfold DotDims.rhsIdx
  rw [dif_neg (show ¬(1 : Fin S512x128.rank) ∈ dot_S4096x512_S512x128_S4096x128_1_0_0_1_n_n.rhsBatch by decide), dif_pos (show (1 : Fin S512x128.rank) ∈ dot_S4096x512_S512x128_S4096x128_1_0_0_1_n_n.rhsNonContracting by decide)]
  rfl

/-- The score product: a [4096, 128] block times the transpose of a [512, 128] block, into zero, at (p, j), is the
    inner product of row p of the first with row j of the second. -/
theorem scoreDot_apply (l : FVec Ideal S4096x128 .bf16) (r : FVec Ideal S512x128 .bf16)
    (h : S512x128.Transposes [1, 0] S128x512) (p : Fin 4096) (j : Fin 512) :
    matmul dot_S4096x128_S128x512_S4096x512_1_0_0_1_n_n none l (transpose S128x512 [1, 0] r h) (constant S4096x512 .f32 0x00000000#32) (ix2 p j)
      = ∑ k : Fin 128, l (ix2 p k) * r (ix2 j k) := by
  refine (Ideal.matmul_constant_zero_apply dot_S4096x128_S128x512_S4096x512_1_0_0_1_n_n none l (transpose S128x512 [1, 0] r h) (ix2 p j)).trans ?_
  rw [← Equiv.sum_comp (ValueIdx.contrEquiv1 dot_S4096x128_S128x512_S4096x512_1_0_0_1_n_n 128 rfl rfl).symm]
  refine Finset.sum_congr rfl fun k _ => ?_
  have hk := ValueIdx.contrEquiv1_symm_val dot_S4096x128_S128x512_S4096x512_1_0_0_1_n_n 128 rfl rfl k
  have el : dot_S4096x128_S128x512_S4096x512_1_0_0_1_n_n.lhsIdx (ix2 p j) ((ValueIdx.contrEquiv1 dot_S4096x128_S128x512_S4096x512_1_0_0_1_n_n 128 rfl rfl).symm k) = ix2 p k := funext fun a => Fin.ext (by
    match a with
    | ⟨0, _⟩ => exact dot_S4096x128_S128x512_S4096x512_1_0_0_1_n_n_lhs0 _ _
    | ⟨1, _⟩ => exact (dot_S4096x128_S128x512_S4096x512_1_0_0_1_n_n_lhs1 _ _).trans hk)
  have er : dot_S4096x128_S128x512_S4096x512_1_0_0_1_n_n.rhsIdx (ix2 p j) ((ValueIdx.contrEquiv1 dot_S4096x128_S128x512_S4096x512_1_0_0_1_n_n 128 rfl rfl).symm k) = ix2 k j := funext fun a => Fin.ext (by
    match a with
    | ⟨0, _⟩ => exact (dot_S4096x128_S128x512_S4096x512_1_0_0_1_n_n_rhs0 _ _).trans hk
    | ⟨1, _⟩ => exact dot_S4096x128_S128x512_S4096x512_1_0_0_1_n_n_rhs1 _ _)
  rw [el, er, transpose_ix2_apply]

/-- The echo product: a [4096, 512] block times a [512, 128] block, into zero, at (p, q), is the sum over the 512
    shared indices. -/
theorem echoDot_apply (l : FVec Ideal S4096x512 .bf16) (r : FVec Ideal S512x128 .bf16) (p : Fin 4096) (q : Fin 128) :
    matmul dot_S4096x512_S512x128_S4096x128_1_0_0_1_n_n none l r (constant S4096x128 .f32 0x00000000#32) (ix2 p q)
      = ∑ j : Fin 512, l (ix2 p j) * r (ix2 j q) := by
  refine (Ideal.matmul_constant_zero_apply dot_S4096x512_S512x128_S4096x128_1_0_0_1_n_n none l r (ix2 p q)).trans ?_
  rw [← Equiv.sum_comp (ValueIdx.contrEquiv1 dot_S4096x512_S512x128_S4096x128_1_0_0_1_n_n 512 rfl rfl).symm]
  refine Finset.sum_congr rfl fun j _ => ?_
  have hj := ValueIdx.contrEquiv1_symm_val dot_S4096x512_S512x128_S4096x128_1_0_0_1_n_n 512 rfl rfl j
  have el : dot_S4096x512_S512x128_S4096x128_1_0_0_1_n_n.lhsIdx (ix2 p q) ((ValueIdx.contrEquiv1 dot_S4096x512_S512x128_S4096x128_1_0_0_1_n_n 512 rfl rfl).symm j) = ix2 p j := funext fun a => Fin.ext (by
    match a with
    | ⟨0, _⟩ => exact dot_S4096x512_S512x128_S4096x128_1_0_0_1_n_n_lhs0 _ _
    | ⟨1, _⟩ => exact (dot_S4096x512_S512x128_S4096x128_1_0_0_1_n_n_lhs1 _ _).trans hj)
  have er : dot_S4096x512_S512x128_S4096x128_1_0_0_1_n_n.rhsIdx (ix2 p q) ((ValueIdx.contrEquiv1 dot_S4096x512_S512x128_S4096x128_1_0_0_1_n_n 512 rfl rfl).symm j) = ix2 j q := funext fun a => Fin.ext (by
    match a with
    | ⟨0, _⟩ => exact (dot_S4096x512_S512x128_S4096x128_1_0_0_1_n_n_rhs0 _ _).trans hj
    | ⟨1, _⟩ => exact dot_S4096x512_S512x128_S4096x128_1_0_0_1_n_n_rhs1 _ _)
  rw [el, er]

/-- A block of scores cubed by two entrywise products, then changed of format, reads at an entry the cube of the score. -/
theorem cubed_apply (s : FVec Ideal S4096x512 .f32) (h : FTy.bits .bf16 < FTy.bits .f32) (i : S4096x512.Idx) :
    truncf .bf16 (mulf (mulf s s) s) h i = cube (s i) := rfl

/-! ## The three stored values -/

/-- The reset value is zero at every entry. -/
theorem pay1_apply (i : S4096x128.Idx) : k0_pay1 (F := Ideal) i = 0 := by
  unfold k0_pay1
  rw [shapeCast_self]
  exact Ideal.ofBits_zero_f32

/-- The normalised query block at (p, q): the entry over its row's clamped length. -/
theorem pay2_apply (x : Vec Ideal S4096x128 .f32) (p : Fin 4096) (q : Fin 128) :
    k0_pay2 (F := Ideal) x (ix2 p q) = unitRow x p q := by
  unfold k0_pay2
  rw [shapeCast_self]
  exact normalised_apply x _ _ _ _ _ p q

/-- The accumulator's update at (p, q): the old value plus the block's 512 terms. -/
theorem pay3_apply (d : Vec Ideal S512x128 .f32) (xb : Vec Ideal S4096x128 .bf16) (e : Vec Ideal S512x128 .f32)
    (acc : Vec Ideal S4096x128 .f32) (p : Fin 4096) (q : Fin 128) :
    k0_pay3 (F := Ideal) d xb e acc (ix2 p q)
      = acc (ix2 p q) + ∑ j : Fin 512, cube (scoreOf (fun k => xb (ix2 p k)) d j) * e (ix2 j q) := by
  unfold k0_pay3
  rw [shapeCast_self]
  refine congrArg (fun z => acc (ix2 p q) + z) ((echoDot_apply _ _ p q).trans (Finset.sum_congr rfl fun j _ => ?_))
  refine congrArg (fun z => z * e (ix2 j q)) ((cubed_apply _ _ _).trans (congrArg cube ?_))
  refine (scoreDot_apply xb _ _ p j).trans (Finset.sum_congr rfl fun k _ => ?_)
  exact congrArg (fun z => xb (ix2 p k) * z) (normalised_apply d _ _ _ _ _ j k)

end Cert.EchoKernel

end
-- ==== Proof.LibSumBlocks.lean ====
/-
  A finite sum cut into consecutive blocks.

  An index below `m * n` is `a * n + b` for exactly one block number `a < m` and one offset `b < n`, so a sum over
  `Fin (m * n)` in any commutative additive monoid is the sum, over the blocks, of each block's sum.  No order or
  finiteness of the summands is used: only that addition is associative and commutative, which holds on the extended
  reals too.
-/
import Mathlib.Algebra.BigOperators.Fin
import Mathlib.Logic.Equiv.Fin.Basic

open scoped BigOperators

namespace SumBlocks

/-- Offset `b` of block `a` lies below `m * n`. -/
theorem lt_mul {m n : ℕ} (a : Fin m) (b : Fin n) : a.val * n + b.val < m * n :=
  calc a.val * n + b.val < a.val * n + n := Nat.add_lt_add_left b.isLt _
    _ = (a.val + 1) * n := (Nat.succ_mul _ _).symm
    _ ≤ m * n := Nat.mul_le_mul_right n a.isLt

/-- The index `a * n + b` of a range of `N = m * n` indices. -/
def idx {m n N : ℕ} (hN : m * n = N) (a : Fin m) (b : Fin n) : Fin N := ⟨a.val * n + b.val, hN ▸ lt_mul a b⟩

@[simp] theorem idx_val {m n N : ℕ} (hN : m * n = N) (a : Fin m) (b : Fin n) : (idx hN a b).val = a.val * n + b.val := rfl

/-- A sum over `N = m * n` indices is the sum over the `m` blocks of the sum over each block's `n` offsets. -/
theorem sum_eq {β : Type*} [AddCommMonoid β] {m n N : ℕ} (hN : m * n = N) (f : Fin N → β) :
    ∑ k : Fin N, f k = ∑ a : Fin m, ∑ b : Fin n, f (idx hN a b) := by
  subst hN
  rw [← Equiv.sum_comp finProdFinEquiv f, Fintype.sum_prod_type]
  refine Finset.sum_congr rfl fun a _ => Finset.sum_congr rfl fun b _ => congrArg f (Fin.ext ?_)
  show b.val + n * a.val = a.val * n + b.val
  rw [Nat.mul_comm, Nat.add_comm]

end SumBlocks
-- ==== Proof.EchoBlocks.lean ====
/-
  The echo function, one row block and one step at a time.

  The 8192 query rows are two row blocks of 4096 rows, and the 16384 stored rows are 32 steps of 512 rows. Row p of
  row block i is query row 4096 * i + p; stored row j of step s is stored row 512 * s + j. For a fixed row block, the
  step-s term at (p, q) is the part of the echo sum that runs over the stored rows of step s. Adding the terms of
  steps 0, 1, ..., 31 in this order, starting from zero, gives the whole echo sum: a sum over 32 * 512 indices is the
  sum over the 32 steps of the sums over each step's 512 indices, in any commutative additive monoid.
-/
import proofs.«153603_j37211596652565_2_alg».proof.Proof.EchoSpec
import proofs.«153603_j37211596652565_2_alg».proof.Proof.LibSumBlocks

noncomputable section

namespace Cert.EchoSpec

open Idealize.ShloMosaic Idealize.ShloMosaic.ValueIdx

/-- Query row p of row block i (reduced modulo the number of rows, so that it is a row for all naturals). -/
def rowOf (i p : ℕ) : Fin 8192 := ⟨(4096 * i + p) % 8192, Nat.mod_lt _ (by decide)⟩

/-- Stored row j of step s (reduced modulo the number of stored rows). -/
def storedOf (s j : ℕ) : Fin 16384 := ⟨(512 * s + j) % 16384, Nat.mod_lt _ (by decide)⟩

/-- The unit rows of a block of rows are the unit rows of the matrix at the block's rows. -/
theorem unitRow_congr {R R' : ℕ} (B : Mat R 128) (A : Mat R' 128) (p : Fin R) (p' : Fin R')
    (h : ∀ k : Fin 128, B (ix2 p k) = A (ix2 p' k)) (q : Fin 128) : unitRow B p q = unitRow A p' q := by
  unfold unitRow rowLen
  simp only [h]

/-- The normalised query rows of row block i. -/
def queryBlock (X : Mat 8192 128) (i : ℕ) : Mat 4096 128 := fun y => unitRow X (rowOf i (y 0).val) (y 1)

/-- The step-s term of row block i: the echo sum restricted to the 512 stored rows of step s. -/
def term (X : Mat 8192 128) (D E : Mat 16384 128) (i s : ℕ) : Mat 4096 128 := fun y =>
  ∑ j : Fin 512, cube (score X D (rowOf i (y 0).val) (storedOf s j.val)) * E (ix2 (storedOf s j.val) (y 1))

/-- A block's 512 terms, computed from the block's own rows, are the step's term. -/
theorem blockSum_eq (X : Mat 8192 128) (D E : Mat 16384 128) (i s : ℕ) (p : Fin 4096) (q : Fin 128)
    (u : Fin 128 → EReal) (Db Eb : Mat 512 128)
    (hu : ∀ k : Fin 128, u k = unitRow X (rowOf i p.val) k)
    (hD : ∀ (j : Fin 512) (k : Fin 128), Db (ix2 j k) = D (ix2 (storedOf s j.val) k))
    (hE : ∀ j : Fin 512, Eb (ix2 j q) = E (ix2 (storedOf s j.val) q)) :
    ∑ j : Fin 512, cube (scoreOf u Db j) * Eb (ix2 j q) = term X D E i s (ix2 p q) := by
  show _ = ∑ j : Fin 512, cube (score X D (rowOf i p.val) (storedOf s j.val)) * E (ix2 (storedOf s j.val) q)
  refine Finset.sum_congr rfl fun j _ => ?_
  rw [hE j]
  refine congrArg (fun z => cube z * E (ix2 (storedOf s j.val) q)) ?_
  show ∑ k : Fin 128, u k * unitRow Db j k = ∑ k : Fin 128, unitRow X (rowOf i p.val) k * unitRow D (storedOf s j.val) k
  refine Finset.sum_congr rfl fun k _ => ?_
  rw [hu k, unitRow_congr Db D j (storedOf s j.val) (hD j) k]

/-- The accumulator of row block i after step s: zero plus the terms of steps 0 to s, added in this order. -/
def accAfter (X : Mat 8192 128) (D E : Mat 16384 128) (i : ℕ) : ℕ → Mat 4096 128
  | 0 => fun y => 0 + term X D E i 0 y
  | s + 1 => fun y => accAfter X D E i s y + term X D E i (s + 1) y

/-- The accumulator after step s is the sum of the terms of steps 0 to s. -/
theorem accAfter_eq_sum (X : Mat 8192 128) (D E : Mat 16384 128) (i : ℕ) (y : (⟨2, ![4096, 128]⟩ : Shape).Idx) :
    ∀ s : ℕ, accAfter X D E i s y = ∑ s' ∈ Finset.range (s + 1), term X D E i s' y
  | 0 => by
    show 0 + term X D E i 0 y = _
    rw [zero_add, Finset.sum_range_one]
  | s + 1 => by
    show accAfter X D E i s y + term X D E i (s + 1) y = _
    rw [accAfter_eq_sum X D E i y s, Finset.sum_range_succ _ (s + 1)]

/-- After the last step the accumulator of row block i holds the echo function at the block's rows. -/
theorem accAfter_last (X : Mat 8192 128) (D E : Mat 16384 128) (i : ℕ) (p : Fin 4096) (q : Fin 128) :
    accAfter X D E i 31 (ix2 p q) = echo X D E (ix2 (rowOf i p.val) q) := by
  rw [accAfter_eq_sum]
  show ∑ s' ∈ Finset.range 32, ∑ j : Fin 512,
      cube (score X D (rowOf i p.val) (storedOf s' j.val)) * E (ix2 (storedOf s' j.val) q)
    = ∑ k : Fin 16384, cube (score X D (rowOf i p.val) k) * E (ix2 k q)
  rw [SumBlocks.sum_eq (m := 32) (n := 512) (N := 16384) rfl, Finset.sum_range]
  refine Finset.sum_congr rfl fun a _ => Finset.sum_congr rfl fun b _ => ?_
  have e : storedOf a.val b.val = SumBlocks.idx (m := 32) (n := 512) (N := 16384) rfl a b := Fin.ext (by
    show (512 * a.val + b.val) % 16384 = a.val * 512 + b.val
    have ha := a.isLt
    have hb := b.isLt
    omega)
  rw [e]

end Cert.EchoSpec

end
-- ==== Proof.StepValue.lean ====
/-
  One step of the kernel body in terms of the echo function's blocks.

  When the body's loaded blocks are the rows of X, D and E that the grid step names, the normalised query block is the
  unit rows of X's row block, and the accumulator's update adds the step's term of that row block to what the
  accumulator held.
-/
import proofs.«153603_j37211596652565_2_alg».proof.Proof.PayloadAt
import proofs.«153603_j37211596652565_2_alg».proof.Proof.EchoBlocks

noncomputable section

namespace Cert.EchoKernel

open Cert.KernelIdeal Cert.KernelIdeal.Gen
open Idealize.ShloMosaic Idealize.ShloMosaic.ValueIdx Cert.EchoSpec

/-- The accumulator after a step that is not the first is the one before plus the step's term. -/
theorem accAfter_pos (X : Mat 8192 128) (D E : Mat 16384 128) (i : ℕ) :
    ∀ s : ℕ, s ≠ 0 → accAfter X D E i s = fun y => accAfter X D E i (s - 1) y + term X D E i s y
  | 0, h => absurd rfl h
  | _ + 1, _ => rfl

/-- The normalised block of the rows of row block i is that block's unit rows. -/
theorem query_value (X : Mat 8192 128) (i : ℕ) (x : Vec Ideal S4096x128 .f32)
    (hx : ∀ (p : Fin 4096) (k : Fin 128), x (ix2 p k) = X (ix2 (rowOf i p.val) k)) :
    k0_pay2 (F := Ideal) x = queryBlock X i := by
  funext y
  obtain ⟨p, q, rfl⟩ : ∃ (p : Fin 4096) (q : Fin 128), y = ix2 p q := ⟨y 0, y 1, eq_ix2 y⟩
  rw [pay2_apply]
  exact unitRow_congr x X p (rowOf i p.val) (hx p) q

/-- The update at step s of row block i adds the step's term to the accumulator. -/
theorem update_value (X : Mat 8192 128) (D E : Mat 16384 128) (i s : ℕ) (d : Vec Ideal S512x128 .f32)
    (xb : Vec Ideal S4096x128 .bf16) (e : Vec Ideal S512x128 .f32) (acc : Vec Ideal S4096x128 .f32)
    (hxb : xb = queryBlock X i)
    (hd : ∀ (j : Fin 512) (k : Fin 128), d (ix2 j k) = D (ix2 (storedOf s j.val) k))
    (he : ∀ (j : Fin 512) (q : Fin 128), e (ix2 j q) = E (ix2 (storedOf s j.val) q)) :
    k0_pay3 (F := Ideal) d xb e acc = fun y => acc y + term X D E i s y := by
  subst hxb
  funext y
  obtain ⟨p, q, rfl⟩ : ∃ (p : Fin 4096) (q : Fin 128), y = ix2 p q := ⟨y 0, y 1, eq_ix2 y⟩
  rw [pay3_apply]
  refine congrArg (fun z => acc (ix2 p q) + z) ?_
  exact blockSum_eq X D E i s p q _ d e (fun _ => rfl) hd (fun j => he j q)

/-- The first step of row block i: from the fresh query block and the zero accumulator, zero plus the first term. -/
theorem first_update_value (X : Mat 8192 128) (D E : Mat 16384 128) (i s : ℕ) (x : Vec Ideal S4096x128 .f32)
    (d e : Vec Ideal S512x128 .f32)
    (hx : ∀ (p : Fin 4096) (k : Fin 128), x (ix2 p k) = X (ix2 (rowOf i p.val) k))
    (hd : ∀ (j : Fin 512) (k : Fin 128), d (ix2 j k) = D (ix2 (storedOf s j.val) k))
    (he : ∀ (j : Fin 512) (q : Fin 128), e (ix2 j q) = E (ix2 (storedOf s j.val) q)) :
    k0_pay3 (F := Ideal) d (k0_pay2 x) e (k0_pay1 (F := Ideal)) = fun y => 0 + term X D E i s y := by
  rw [update_value X D E i s d (k0_pay2 x) e (k0_pay1 (F := Ideal)) (query_value X i x hx) hd he]
  funext y
  rw [pay1_apply]

end Cert.EchoKernel

end
-- ==== Proof.FoundPieces.lean ====
/-
  What one run of the kernel body leaves in the accumulator, in the normalised-query scratch and in the output block,
  as the stored values of PayloadAt applied to what the body loaded.

  The body runs in three ways. At the first step of a row of the grid it resets the accumulator to zero, stores the
  normalised query block, and then updates the accumulator from those two fresh values. At a middle step it only
  updates the accumulator from what the step before left in the two scratch buffers. At the last step it updates the
  accumulator in the same way and copies it to the output block. Every store covers its whole buffer and every load
  reads a whole buffer, so each buffer ends at the value of its last store, and a load after a store reads that
  store's value.
-/
import proofs.«153603_j37211596652565_2_alg».proof.Proof.Gen.KernelIdeal.Frame
import Idealize.ShloMosaic.Lib.Pipeline.Value
import Idealize.ShloMosaic.Lib.Tactic

noncomputable section

namespace Cert.EchoKernel

open Cert.KernelIdeal Cert.KernelIdeal.Gen
open Idealize.ShloMosaic Idealize.ShloMosaic.TcCoe Idealize.SL.Sem

variable {F : FTy → Type} [FloatOps F]

/-- The zero offsets of a whole-buffer rectangle. -/
theorem hz : (![0, 0] : Fin 2 → Nat) = fun _ => 0 := funext fun a => by fin_cases a <;> rfl

/-- First step: the accumulator ends at the update of zero by the fresh normalised query block. -/
theorem first_acc (c : Dev nD) (i : grid0.Coords) (arg2 : Memref sig .tc .vmem S4096x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .bf16) (harg7 : arg7.IsWhole) (hc0 : cond0_0 i) (hc1 : ¬cond0_1 i) (x0 : Vec F S4096x128 .f32) (x1 : Vec F S512x128 .f32) (x2 : Vec F S512x128 .f32) :
    sout0_A_0 c i arg2 harg2 arg3 harg3 arg4 harg4 arg5 harg5 arg6 harg6 arg7 harg7 hc0 hc1 x0 x1 x2 = k0_pay3 x1 (k0_pay2 x0) x2 k0_pay1 := by
  unfold sout0_A_0
  rw [View.read_writes_eq_canon _ _ _ (scover0_A_0 c i arg2 harg2 arg3 harg3 arg4 harg4 arg5 harg5 arg6 harg6 arg7 harg7 hc0 hc1 x0 x1 x2)]
  unfold kernelRun0_A
  dsimp only
  sl_unfold_words
  rw [View.canon_cons_unit_zero (S := S4096x128) hz, View.readCov_unit_zero (S := S4096x128) _ hz,
    View.readCov_unit_zero (S := S4096x128) _ hz]
  simp only [View.readAt_eq_ld, harg2.read_unread, harg3.read_unread, harg4.read_unread, harg6.read_unread, harg7.read_unread,
    View.ld_unit_zero (S := S4096x128) hz, View.ld_unit_zero (S := S512x128) hz]

/-- First step: the scratch ends at the normalised query block. -/
theorem first_query (c : Dev nD) (i : grid0.Coords) (arg2 : Memref sig .tc .vmem S4096x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .bf16) (harg7 : arg7.IsWhole) (hc0 : cond0_0 i) (hc1 : ¬cond0_1 i) (x0 : Vec F S4096x128 .f32) (x1 : Vec F S512x128 .f32) (x2 : Vec F S512x128 .f32) :
    sout0_A_1 c i arg2 harg2 arg3 harg3 arg4 harg4 arg5 harg5 arg6 harg6 arg7 harg7 hc0 hc1 x0 x1 x2 = k0_pay2 x0 := by
  unfold sout0_A_1
  rw [View.read_writes_eq_canon _ _ _ (scover0_A_1 c i arg2 harg2 arg3 harg3 arg4 harg4 arg5 harg5 arg6 harg6 arg7 harg7 hc0 hc1 x0 x1 x2)]
  unfold kernelRun0_A
  dsimp only
  sl_unfold_words
  rw [View.canon_unit_zero (S := S4096x128) hz]
  simp only [View.readAt_eq_ld, harg2.read_unread, harg3.read_unread, harg4.read_unread, harg6.read_unread, harg7.read_unread,
    View.ld_unit_zero (S := S4096x128) hz, View.ld_unit_zero (S := S512x128) hz]

/-- Middle step: the accumulator ends at the update of what the step before left. -/
theorem middle_acc (c : Dev nD) (i : grid0.Coords) (arg2 : Memref sig .tc .vmem S4096x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .bf16) (harg7 : arg7.IsWhole) (hc0 : ¬cond0_0 i) (hc1 : ¬cond0_1 i) (x0 : Vec F S4096x128 .f32) (x1 : Vec F S512x128 .f32) (x2 : Vec F S512x128 .f32) (xs0 : Vec F S4096x128 .f32) (xs1 : Vec F S4096x128 .bf16) :
    sout0_B_0 c i arg2 harg2 arg3 harg3 arg4 harg4 arg5 harg5 arg6 harg6 arg7 harg7 hc0 hc1 x0 x1 x2 xs0 xs1 = k0_pay3 x1 xs1 x2 xs0 := by
  unfold sout0_B_0
  rw [View.read_writes_eq_canon _ _ _ (scover0_B_0 c i arg2 harg2 arg3 harg3 arg4 harg4 arg5 harg5 arg6 harg6 arg7 harg7 hc0 hc1 x0 x1 x2 xs0 xs1)]
  unfold kernelRun0_B
  dsimp only
  sl_unfold_words
  rw [View.canon_unit_zero (S := S4096x128) hz]
  simp only [View.readAt_eq_ld, harg2.read_unread, harg3.read_unread, harg4.read_unread, harg6.read_unread, harg7.read_unread,
    View.ld_unit_zero (S := S4096x128) hz, View.ld_unit_zero (S := S512x128) hz]

/-- Last step: the accumulator ends at the update of what the step before left, -/
theorem last_acc (c : Dev nD) (i : grid0.Coords) (arg2 : Memref sig .tc .vmem S4096x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .bf16) (harg7 : arg7.IsWhole) (hc0 : ¬cond0_0 i) (hc1 : cond0_1 i) (x0 : Vec F S4096x128 .f32) (x1 : Vec F S512x128 .f32) (x2 : Vec F S512x128 .f32) (xs0 : Vec F S4096x128 .f32) (xs1 : Vec F S4096x128 .bf16) :
    sout0_C_0 c i arg2 harg2 arg3 harg3 arg4 harg4 arg5 harg5 arg6 harg6 arg7 harg7 hc0 hc1 x0 x1 x2 xs0 xs1 = k0_pay3 x1 xs1 x2 xs0 := by
  unfold sout0_C_0
  rw [View.read_writes_eq_canon _ _ _ (scover0_C_0 c i arg2 harg2 arg3 harg3 arg4 harg4 arg5 harg5 arg6 harg6 arg7 harg7 hc0 hc1 x0 x1 x2 xs0 xs1)]
  unfold kernelRun0_C
  dsimp only
  sl_unfold_words
  rw [View.canon_unit_zero (S := S4096x128) hz]
  simp only [View.readAt_eq_ld, harg2.read_unread, harg3.read_unread, harg4.read_unread, harg6.read_unread, harg7.read_unread,
    View.ld_unit_zero (S := S4096x128) hz, View.ld_unit_zero (S := S512x128) hz]

/-- and the output block ends at the same value, copied from the accumulator. -/
theorem last_out (c : Dev nD) (i : grid0.Coords) (arg2 : Memref sig .tc .vmem S4096x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .bf16) (harg7 : arg7.IsWhole) (hc0 : ¬cond0_0 i) (hc1 : cond0_1 i) (x0 : Vec F S4096x128 .f32) (x1 : Vec F S512x128 .f32) (x2 : Vec F S512x128 .f32) (xs0 : Vec F S4096x128 .f32) (xs1 : Vec F S4096x128 .bf16) :
    out0_C_3 c i arg2 harg2 arg3 harg3 arg4 harg4 arg5 harg5 arg6 harg6 arg7 harg7 hc0 hc1 x0 x1 x2 xs0 xs1 = k0_pay3 x1 xs1 x2 xs0 := by
  unfold out0_C_3
  rw [View.read_writes_eq_canon _ _ _ (cover0_C_3 c i arg2 harg2 arg3 harg3 arg4 harg4 arg5 harg5 arg6 harg6 arg7 harg7 hc0 hc1 x0 x1 x2 xs0 xs1)]
  unfold kernelRun0_C
  dsimp only
  sl_unfold_words
  rw [View.canon_unit_zero (S := S4096x128) hz, View.readCov_unit_zero (S := S4096x128) _ hz]
  simp only [View.readAt_eq_ld, harg2.read_unread, harg3.read_unread, harg4.read_unread, harg6.read_unread, harg7.read_unread,
    View.ld_unit_zero (S := S4096x128) hz, View.ld_unit_zero (S := S512x128) hz]

end Cert.EchoKernel

end
-- ==== Proof.GridRun.lean ====
/-
  The kernel's run over the grid leaves the echo function in the result array.

  The grid has two row blocks of 32 steps each; point n is step n % 32 of row block n / 32. At point n the query
  window holds rows 4096 * (n / 32) + p of X, the two stored windows hold rows 512 * (n % 32) + j of D and of E, and
  the output window is rows 4096 * (n / 32) + p of the result. By induction on the point, after point n the query
  scratch holds the unit rows of X's row block n / 32 and the accumulator holds zero plus the terms of steps 0 to
  n % 32 of that row block. The output block is written back only after a row block's last step, where it is a copy
  of the accumulator, which by then holds the echo function at the block's rows; the two row blocks cover the array.
-/
import proofs.«153603_j37211596652565_2_alg».proof.Proof.Gen.KernelIdeal.Value
import proofs.«153603_j37211596652565_2_alg».proof.Proof.StepValue
import proofs.«153603_j37211596652565_2_alg».proof.Proof.FoundPieces

noncomputable section

namespace Cert.EchoKernel

open Cert.KernelIdeal Cert.KernelIdeal.Gen Cert.KernelIdeal.Value
open Idealize.ShloMosaic Idealize.ShloMosaic.TcCoe Idealize.SL.Sem Idealize.ShloMosaic.ValueIdx Cert.EchoSpec
open Idealize.ShloMosaic.Pipeline (Dat)

variable (m : (ℓ : Loc nD τ sig) → Buf (Elt Ideal) ℓ) (ρ : Dev nD → PrngReg)

/-- The three argument arrays on core c, as matrices of extended reals. -/
abbrev argX (c : Dev nD) : Mat 8192 128 := m ((c : Thread nD τ).loc main_arg0)
abbrev argD (c : Dev nD) : Mat 16384 128 := m ((c : Thread nD τ).loc main_arg1)
abbrev argE (c : Dev nD) : Mat 16384 128 := m ((c : Thread nD τ).loc main_arg2)

/-- The block index of every window at every point: the query and output windows follow the row block n / 32, the
    two stored windows the step n % 32; no window moves along the columns. -/
theorem idx_facts : ∀ t : Fin cfg0.N,
    win0_0.index t (0 : Fin 2) = t.val / 32 ∧ win0_0.index t (1 : Fin 2) = 0
    ∧ win0_1.index t (0 : Fin 2) = t.val % 32 ∧ win0_1.index t (1 : Fin 2) = 0
    ∧ win0_2.index t (0 : Fin 2) = t.val % 32 ∧ win0_2.index t (1 : Fin 2) = 0
    ∧ win0_3.index t (0 : Fin 2) = t.val / 32 ∧ win0_3.index t (1 : Fin 2) = 0 :=
  (by decide +kernel : ∀ t : Fin grid0.N, _)

/-- The query window's block at point t: rows of X's row block t / 32. -/
theorem blockX (c : Dev nD) (t : Fin cfg0.N) (p : Fin 4096) (k : Fin 128) :
    (iblk m c 0 t : Vec Ideal S4096x128 .f32) (ix2 p k) = argX m c (ix2 (rowOf (t.val / 32) p.val) k) := by
  obtain ⟨e0, e1, -⟩ := idx_facts t
  have hN : t.val < 64 := lt_of_lt_of_eq t.isLt (show cfg0.N = 64 from N_0)
  unfold iblk
  rw [View.read_apply]
  show V m c main_arg0 _ = m ((c : Thread nD τ).loc main_arg0) _
  refine congrArg (m ((c : Thread nD τ).loc main_arg0)) (funext fun a => Fin.ext ?_)
  match a with
  | ⟨0, _⟩ =>
    show win0_0.index t (0 : Fin 2) * 4096 + 1 * p.val = (4096 * (t.val / 32) + p.val) % 8192
    rw [e0]; have := p.isLt; omega
  | ⟨1, _⟩ =>
    show win0_0.index t (1 : Fin 2) * 128 + 1 * k.val = k.val
    rw [e1]; omega

/-- The first stored window's block at point t: rows of D's step t % 32. -/
theorem blockD (c : Dev nD) (t : Fin cfg0.N) (j : Fin 512) (k : Fin 128) :
    (iblk m c 1 t : Vec Ideal S512x128 .f32) (ix2 j k) = argD m c (ix2 (storedOf (t.val % 32) j.val) k) := by
  obtain ⟨-, -, e0, e1, -⟩ := idx_facts t
  unfold iblk
  rw [View.read_apply]
  show V m c main_arg1 _ = m ((c : Thread nD τ).loc main_arg1) _
  refine congrArg (m ((c : Thread nD τ).loc main_arg1)) (funext fun a => Fin.ext ?_)
  match a with
  | ⟨0, _⟩ =>
    show win0_1.index t (0 : Fin 2) * 512 + 1 * j.val = (512 * (t.val % 32) + j.val) % 16384
    rw [e0]; have := j.isLt; omega
  | ⟨1, _⟩ =>
    show win0_1.index t (1 : Fin 2) * 128 + 1 * k.val = k.val
    rw [e1]; omega

/-- The second stored window's block at point t: rows of E's step t % 32. -/
theorem blockE (c : Dev nD) (t : Fin cfg0.N) (j : Fin 512) (q : Fin 128) :
    (iblk m c 2 t : Vec Ideal S512x128 .f32) (ix2 j q) = argE m c (ix2 (storedOf (t.val % 32) j.val) q) := by
  obtain ⟨-, -, -, -, e0, e1, -⟩ := idx_facts t
  unfold iblk
  rw [View.read_apply]
  show V m c main_arg2 _ = m ((c : Thread nD τ).loc main_arg2) _
  refine congrArg (m ((c : Thread nD τ).loc main_arg2)) (funext fun a => Fin.ext ?_)
  match a with
  | ⟨0, _⟩ =>
    show win0_2.index t (0 : Fin 2) * 512 + 1 * j.val = (512 * (t.val % 32) + j.val) % 16384
    rw [e0]; have := j.isLt; omega
  | ⟨1, _⟩ =>
    show win0_2.index t (1 : Fin 2) * 128 + 1 * q.val = q.val
    rw [e1]; omega

/-- After point n the query scratch holds the unit rows of row block n / 32, and the accumulator holds zero plus the
    terms of steps 0 to n % 32 of that row block. -/
theorem scratch_inv (c : Dev nD) (n : ℕ) : ∀ hn : n < cfg0.N,
    (outsAt0 m c n hn).2.2 = queryBlock (argX m c) (n / 32)
    ∧ (outsAt0 m c n hn).2.1 = accAfter (argX m c) (argD m c) (argE m c) (n / 32) (n % 32) := by
  induction n using Nat.strong_induction_on with
  | _ n ih =>
    intro hn
    have hN : n < 64 := lt_of_lt_of_eq hn (show cfg0.N = 64 from N_0)
    by_cases h0 : n % 32 = 0
    · have h1 : ¬n % 32 = 31 := by omega
      rw [outsAt0_A m c (⟨n, hn⟩ : Fin cfg0.N) h0 h1]
      dsimp only
      constructor
      · exact (first_query c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) scM0_0 (Memref.isWhole_whole _) scM0_1 (Memref.isWhole_whole _) ((hcond0_0 (⟨n, hn⟩ : Fin cfg0.N)).mpr h0) (fun h => h1 ((hcond0_1 (⟨n, hn⟩ : Fin cfg0.N)).mp h)) (iblk m c 0 (⟨n, hn⟩ : Fin cfg0.N)) (iblk m c 1 (⟨n, hn⟩ : Fin cfg0.N)) (iblk m c 2 (⟨n, hn⟩ : Fin cfg0.N))).trans
          (query_value (argX m c) (n / 32) (iblk m c 0 (⟨n, hn⟩ : Fin cfg0.N)) (blockX m c (⟨n, hn⟩ : Fin cfg0.N)))
      · refine Eq.trans ?_ (congrArg (accAfter (argX m c) (argD m c) (argE m c) (n / 32)) h0).symm
        exact (first_acc c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) scM0_0 (Memref.isWhole_whole _) scM0_1 (Memref.isWhole_whole _) ((hcond0_0 (⟨n, hn⟩ : Fin cfg0.N)).mpr h0) (fun h => h1 ((hcond0_1 (⟨n, hn⟩ : Fin cfg0.N)).mp h)) (iblk m c 0 (⟨n, hn⟩ : Fin cfg0.N)) (iblk m c 1 (⟨n, hn⟩ : Fin cfg0.N)) (iblk m c 2 (⟨n, hn⟩ : Fin cfg0.N))).trans
          (first_update_value (argX m c) (argD m c) (argE m c) (n / 32) 0 (iblk m c 0 (⟨n, hn⟩ : Fin cfg0.N)) (iblk m c 1 (⟨n, hn⟩ : Fin cfg0.N)) (iblk m c 2 (⟨n, hn⟩ : Fin cfg0.N))
            (blockX m c (⟨n, hn⟩ : Fin cfg0.N)) (fun j k => (blockD m c (⟨n, hn⟩ : Fin cfg0.N) j k).trans (by rw [show ((⟨n, hn⟩ : Fin cfg0.N)).val % 32 = 0 from h0]))
            (fun j q => (blockE m c (⟨n, hn⟩ : Fin cfg0.N) j q).trans (by rw [show ((⟨n, hn⟩ : Fin cfg0.N)).val % 32 = 0 from h0])))
    · have hp := ih (n - 1) (by omega) (Nat.lt_of_le_of_lt (Nat.sub_le _ _) hn)
      have hdiv : (n - 1) / 32 = n / 32 := by omega
      have hm : (n - 1) % 32 = n % 32 - 1 := by omega
      have hq := hp.1
      have ha := hp.2
      rw [hdiv] at hq
      rw [hdiv, hm] at ha
      by_cases h1 : n % 32 = 31
      · rw [outsAt0_C m c (⟨n, hn⟩ : Fin cfg0.N) h0 h1]
        dsimp only
        constructor
        · exact hq
        · refine (last_acc c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) scM0_0 (Memref.isWhole_whole _) scM0_1 (Memref.isWhole_whole _) (fun h => h0 ((hcond0_0 (⟨n, hn⟩ : Fin cfg0.N)).mp h)) ((hcond0_1 (⟨n, hn⟩ : Fin cfg0.N)).mpr h1) (iblk m c 0 (⟨n, hn⟩ : Fin cfg0.N)) (iblk m c 1 (⟨n, hn⟩ : Fin cfg0.N)) (iblk m c 2 (⟨n, hn⟩ : Fin cfg0.N)) (outsAt0 m c (n - 1) (Nat.lt_of_le_of_lt (Nat.sub_le _ _) hn)).2.1 (outsAt0 m c (n - 1) (Nat.lt_of_le_of_lt (Nat.sub_le _ _) hn)).2.2).trans ?_
          refine (update_value (argX m c) (argD m c) (argE m c) (n / 32) (n % 32) (iblk m c 1 (⟨n, hn⟩ : Fin cfg0.N)) (outsAt0 m c (n - 1) (Nat.lt_of_le_of_lt (Nat.sub_le _ _) hn)).2.2 (iblk m c 2 (⟨n, hn⟩ : Fin cfg0.N)) (outsAt0 m c (n - 1) (Nat.lt_of_le_of_lt (Nat.sub_le _ _) hn)).2.1
            hq (blockD m c (⟨n, hn⟩ : Fin cfg0.N)) (blockE m c (⟨n, hn⟩ : Fin cfg0.N))).trans ?_
          rw [accAfter_pos _ _ _ _ (n % 32) h0, ha]
      · rw [outsAt0_B m c (⟨n, hn⟩ : Fin cfg0.N) h0 h1]
        dsimp only
        constructor
        · exact hq
        · refine (middle_acc c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) scM0_0 (Memref.isWhole_whole _) scM0_1 (Memref.isWhole_whole _) (fun h => h0 ((hcond0_0 (⟨n, hn⟩ : Fin cfg0.N)).mp h)) (fun h => h1 ((hcond0_1 (⟨n, hn⟩ : Fin cfg0.N)).mp h)) (iblk m c 0 (⟨n, hn⟩ : Fin cfg0.N)) (iblk m c 1 (⟨n, hn⟩ : Fin cfg0.N)) (iblk m c 2 (⟨n, hn⟩ : Fin cfg0.N)) (outsAt0 m c (n - 1) (Nat.lt_of_le_of_lt (Nat.sub_le _ _) hn)).2.1 (outsAt0 m c (n - 1) (Nat.lt_of_le_of_lt (Nat.sub_le _ _) hn)).2.2).trans ?_
          refine (update_value (argX m c) (argD m c) (argE m c) (n / 32) (n % 32) (iblk m c 1 (⟨n, hn⟩ : Fin cfg0.N)) (outsAt0 m c (n - 1) (Nat.lt_of_le_of_lt (Nat.sub_le _ _) hn)).2.2 (iblk m c 2 (⟨n, hn⟩ : Fin cfg0.N)) (outsAt0 m c (n - 1) (Nat.lt_of_le_of_lt (Nat.sub_le _ _) hn)).2.1
            hq (blockD m c (⟨n, hn⟩ : Fin cfg0.N)) (blockE m c (⟨n, hn⟩ : Fin cfg0.N))).trans ?_
          rw [accAfter_pos _ _ _ _ (n % 32) h0, ha]

/-- At a row block's last step the output block is a copy of the accumulator. -/
theorem out_eq_acc (c : Dev nD) (t : Fin cfg0.N) (h1 : t.val % 32 = 31) :
    (outsAt0 m c t.val t.isLt).1 = (outsAt0 m c t.val t.isLt).2.1 := by
  have h0 : ¬t.val % 32 = 0 := by omega
  rw [outsAt0_C m c t h0 h1]
  dsimp only
  exact (last_out c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2).trans
    (last_acc c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2).symm

/-- The output window's blocks lie inside the result array, so a block is written back whole. -/
theorem cut_whole (t : Fin cfg0.N) (A : Mat 4096 128) : (cfg0.win 3).cut (grid0.coords t) A = A := rfl

/-- What a writing point writes back is its block of the echo function of the three arguments. -/
theorem flushed_eq (c : Dev nD) (t : Fin cfg0.N) (hf : (cfg0.win 3).flush t = true) :
    (dats m 0 c).flushed 3 t = ((cfg0.win 3).blk t).view.read (Elt Ideal) (echo (argX m c) (argD m c) (argE m c)) := by
  have h1 : t.val % 32 = 31 := (flush0_3 t).mp hf
  have hN : t.val < 64 := lt_of_lt_of_eq t.isLt (show cfg0.N = 64 from N_0)
  obtain ⟨-, -, -, -, -, -, e0, e1⟩ := idx_facts t
  rw [flushed3 m c t, out_eq_acc m c t h1, (scratch_inv m c t.val t.isLt).2, h1, cut_whole]
  have key : ∀ y : (⟨2, ![4096, 128]⟩ : Shape).Idx,
      accAfter (argX m c) (argD m c) (argE m c) (t.val / 32) 31 y = echo (argX m c) (argD m c) (argE m c) (((cfg0.win 3).blk t).view.emb y) := by
    intro y
    obtain ⟨p, q, rfl⟩ : ∃ (p : Fin 4096) (q : Fin 128), y = ix2 p q := ⟨y 0, y 1, eq_ix2 y⟩
    rw [accAfter_last]
    refine congrArg (echo (argX m c) (argD m c) (argE m c)) (funext fun a => Fin.ext ?_)
    match a with
    | ⟨0, _⟩ =>
      show (4096 * (t.val / 32) + p.val) % 8192 = win0_3.index t (0 : Fin 2) * 4096 + 1 * p.val
      rw [e0]; have := p.isLt; omega
    | ⟨1, _⟩ =>
      show q.val = win0_3.index t (1 : Fin 2) * 128 + 1 * q.val
      rw [e1]; omega
  funext j
  generalize echo (argX m c) (argD m c) (argE m c) = G at key ⊢
  generalize accAfter (argX m c) (argD m c) (argE m c) (t.val / 32) 31 = A at key ⊢
  rw [View.read_apply]
  exact key j

/-- An index of the result array is in point t's block iff each coordinate is in the block's range on its axis. -/
theorem mem_blk (t : Fin cfg0.N) (i : S8192x128.Idx) :
    i ∈ ((cfg0.win 3).blk t).view.set ↔ ∀ a : Fin 2, win0_3.index t a * S4096x128.size a ≤ (i a).val ∧ (i a).val < win0_3.index t a * S4096x128.size a + S4096x128.size a := by
  show i ∈ ((View.whole main_v0).slice (win0_3.rect t)).set ↔ _
  rw [View.set_slice_whole, Rect.mem_set_unit]
  exact Iff.rfl

/-- Every entry of the result array lies in the block some row block's last step writes back. -/
theorem cover (i : S8192x128.Idx) :
    ∃ t : Fin cfg0.N, (cfg0.win 3).flush t = true ∧ i ∈ ((cfg0.win 3).blk t).view.set := by
  have hi0 : (i 0).val < 8192 := (i 0).isLt
  have hi1 : (i 1).val < 128 := (i 1).isLt
  have hb : 32 * ((i 0).val / 4096) + 31 < cfg0.N := by rw [show cfg0.N = 64 from N_0]; omega
  obtain ⟨-, -, -, -, -, -, e0, e1⟩ := idx_facts ⟨32 * ((i 0).val / 4096) + 31, hb⟩
  refine ⟨⟨32 * ((i 0).val / 4096) + 31, hb⟩, (flush0_3 _).mpr (by show (32 * ((i 0).val / 4096) + 31) % 32 = 31; omega), ?_⟩
  rw [mem_blk]
  intro a
  match a with
  | ⟨0, _⟩ =>
    show win0_3.index ⟨32 * ((i 0).val / 4096) + 31, hb⟩ (0 : Fin 2) * 4096 ≤ (i 0).val ∧ (i 0).val < win0_3.index ⟨32 * ((i 0).val / 4096) + 31, hb⟩ (0 : Fin 2) * 4096 + 4096
    rw [e0]
    show (32 * ((i 0).val / 4096) + 31) / 32 * 4096 ≤ (i 0).val ∧ (i 0).val < (32 * ((i 0).val / 4096) + 31) / 32 * 4096 + 4096
    omega
  | ⟨1, _⟩ =>
    show win0_3.index ⟨32 * ((i 0).val / 4096) + 31, hb⟩ (1 : Fin 2) * 128 ≤ (i 1).val ∧ (i 1).val < win0_3.index ⟨32 * ((i 0).val / 4096) + 31, hb⟩ (1 : Fin 2) * 128 + 128
    rw [e1]
    omega

/-- After the run the result array holds the echo function of the three arguments. -/
theorem final (c : Dev nD) : (dats m 0 c).arrAt 3 cfg0.N = echo (argX m c) (argD m c) (argE m c) :=
  (dats m 0 c).arrAt_eq_of_cover 3 (echo (argX m c) (argD m c) (argE m c)) (fun t hf => flushed_eq m c t hf) cover

/-- Every weakly fair execution of the idealized kernel terminates with the result array at the echo function of the
    arguments and the arguments unchanged. -/
theorem run : θ_run defs (onTc (τ := τ) (main (F := Ideal))) ⟨m, fun _ => 0, ρ⟩ fun r => ∀ c : Dev nD,
      r.2.mem ((c : Thread nD τ).loc main_v0) = echo (argX m c) (argD m c) (argE m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.EchoKernel

end
-- ==== Proof.CubeLaw.lean ====
/-
  The odd cube on the extended reals.

  For every extended real s the product s * s * s equals the sign of s times the third power of its magnitude
  max s (-s): on a real r both sides are r ^ 3 (the sign of r times |r| ^ 3), at +inf both are +inf, and at -inf both
  are -inf (the square of -inf is +inf, and +inf * -inf = -inf; the sign of -inf is -1 and its magnitude is +inf).
  So a score cubed by two multiplications and a score sent through sign, absolute value and a power with exponent 3
  are the same extended real, with no finiteness assumed.
-/
import Idealize.ShloMosaic.PureOps.Ideal
import Idealize.ShloMosaic.PureOps.Ideal.Laws

noncomputable section

namespace Cert.EchoLaw

open Idealize.ShloMosaic

/-- The single-precision pattern of 3.0 denotes the real number 3. -/
theorem ofBits_three : Ideal.ofBits .f32 0x40400000#32 = ((3 : ℝ) : EReal) := by
  simp [Ideal.ofBits, Ideal.ieee, -EReal.coe_mul]; norm_num

/-- On the reals, the sign of r times |r| to the real power 3 is r * r * r. -/
theorem real_sign_mul_rpow_three (r : ℝ) : (SignType.sign r : ℝ) * Real.rpow |r| 3 = r * r * r := by
  have h3 : Real.rpow |r| 3 = |r| ^ (3 : ℕ) := by
    show |r| ^ (3 : ℝ) = _
    exact_mod_cast Real.rpow_natCast |r| 3
  rw [h3]
  rcases lt_trichotomy r 0 with h | h | h
  · rw [sign_neg h, abs_of_neg h]; simp; ring
  · subst h; simp
  · rw [sign_pos h, abs_of_pos h]; simp; ring

/-- The cube by two products is the sign times the third power of the magnitude, on every extended real. -/
theorem cube_eq_sign_mul_pow (s : EReal) :
    s * s * s = Ideal.sign s * Ideal.pow (max s (-s)) ((3 : ℝ) : EReal) := by
  induction s using EReal.rec with
  | bot =>
    rw [Ideal.sign_bot, EReal.neg_bot, max_eq_right bot_le, Ideal.pow_top, EReal.bot_mul_bot, EReal.top_mul_bot]
    simp
  | top =>
    rw [Ideal.sign_top, EReal.neg_top, max_eq_left bot_le, Ideal.pow_top, EReal.top_mul_top, EReal.top_mul_top]
    simp
  | coe r =>
    have habs : max (r : EReal) (-(r : EReal)) = ((|r| : ℝ) : EReal) := by
      rw [← EReal.coe_neg, abs_eq_max_neg]
      exact (EReal.coe_strictMono.monotone.map_max (a := r) (b := -r)).symm
    rw [Ideal.sign_coe, habs, Ideal.pow_coe_coe, ← EReal.coe_mul, ← EReal.coe_mul, ← EReal.coe_mul,
      real_sign_mul_rpow_three]

end Cert.EchoLaw

end
-- ==== Proof.ReferenceEcho.lean ====
/-
  The reference computes the echo function.

  Read one operation at a time, the reference divides every row of X and of D by its clamped length, contracts the two
  over the 128 columns into the 8192 x 16384 matrix of scores, sends every score s through sign(s) * |s| ^ 3, and
  contracts the result with E over the 16384 stored rows. Since sign(s) * |s| ^ 3 is s * s * s on every extended real,
  this is the echo function of the three arguments.
-/
import proofs.«153603_j37211596652565_2_alg».proof.Proof.Gen.ReferenceIdeal.Read
import proofs.«153603_j37211596652565_2_alg».proof.Proof.EchoSpec
import proofs.«153603_j37211596652565_2_alg».proof.Proof.CubeLaw

noncomputable section

namespace Cert.EchoReference

open Cert.ReferenceIdeal Cert.ReferenceIdeal.Gen Cert.ReferenceIdeal.Read
open Idealize.ShloMosaic Idealize.ShloMosaic.ValueIdx Cert.EchoSpec

/-- The reference's normalised X, entry by entry, is X's unit rows. -/
theorem unitX (x0 : (⟨S8192x128, .f32⟩ : BufTy).Contents (Elt Ideal)) (n : Fin 8192) (k : Fin 128) :
    val_main_v7 (F := Ideal) x0 (ix2 n k) = unitRow x0 n k := by
  have e1 : ∀ k' : Fin 128, idx_main_v1 (idx_main_v2 (idx_main_v6 (ix2 n k))) k' = ix2 n k' := fun k' =>
    funext fun a => Fin.ext (by match a with | ⟨0, _⟩ => rfl | ⟨1, _⟩ => rfl)
  rw [val_main_v7_apply, val_main_v6_apply, val_main_v5_apply, val_main_v3_apply, val_main_v2_apply, val_main_v1_apply,
    val_main_v4_apply, val_main_cst_0_apply, val_main_cst_apply]
  simp only [val_main_v0_apply, e1, Ideal.hostDivf_def, Ideal.maximumf_def, Ideal.hostUnary_sqrt_def, Ideal.mulf_def,
    Ideal.ofBits_def, Ideal.ofBits_zero_f32, zero_add]
  rfl

/-- The reference's normalised D, entry by entry, is D's unit rows. -/
theorem unitD (x1 : (⟨S16384x128, .f32⟩ : BufTy).Contents (Elt Ideal)) (j : Fin 16384) (k : Fin 128) :
    val_main_v15 (F := Ideal) x1 (ix2 j k) = unitRow x1 j k := by
  have e1 : ∀ k' : Fin 128, idx_main_v9 (idx_main_v10 (idx_main_v14 (ix2 j k))) k' = ix2 j k' := fun k' =>
    funext fun a => Fin.ext (by match a with | ⟨0, _⟩ => rfl | ⟨1, _⟩ => rfl)
  rw [val_main_v15_apply, val_main_v14_apply, val_main_v13_apply, val_main_v11_apply, val_main_v10_apply, val_main_v9_apply,
    val_main_v12_apply, val_main_cst_2_apply, val_main_cst_1_apply]
  simp only [val_main_v8_apply, e1, Ideal.hostDivf_def, Ideal.maximumf_def, Ideal.hostUnary_sqrt_def, Ideal.mulf_def,
    Ideal.ofBits_def, Ideal.ofBits_zero_f32, zero_add]
  rfl

/-- The reference's first contraction at (n, j) is the score of query row n against stored row j. -/
theorem score_eq (x0 : (⟨S8192x128, .f32⟩ : BufTy).Contents (Elt Ideal)) (x1 : (⟨S16384x128, .f32⟩ : BufTy).Contents (Elt Ideal))
    (n : Fin 8192) (j : Fin 16384) :
    val_main_v16 (F := Ideal) x0 x1 (ix2 n j) = score x0 x1 n j := by
  rw [val_main_v16_apply]
  show _ = ∑ k : Fin 128, unitRow x0 n k * unitRow x1 j k
  refine Finset.sum_congr rfl fun k _ => ?_
  have el : lidx_main_v16 (ix2 n j) k = ix2 n k :=
    funext fun a => Fin.ext (by match a with | ⟨0, _⟩ => rfl | ⟨1, _⟩ => rfl)
  have er : ridx_main_v16 (ix2 n j) k = ix2 j k :=
    funext fun a => Fin.ext (by match a with | ⟨0, _⟩ => rfl | ⟨1, _⟩ => rfl)
  rw [el, er, unitX, unitD]

/-- The reference's result is the echo function of its three arguments. -/
theorem result_eq_echo (x0 : (⟨S8192x128, .f32⟩ : BufTy).Contents (Elt Ideal))
    (x1 x2 : (⟨S16384x128, .f32⟩ : BufTy).Contents (Elt Ideal)) :
    val_main_v22 (F := Ideal) x0 x1 x2 = echo x0 x1 x2 := by
  funext i
  obtain ⟨n, c, rfl⟩ : ∃ (n : Fin 8192) (c : Fin 128), i = ix2 n c := ⟨i 0, i 1, eq_ix2 i⟩
  rw [val_main_v22_apply]
  show _ = ∑ j : Fin 16384, cube (score x0 x1 n j) * x2 (ix2 j c)
  refine Finset.sum_congr rfl fun j _ => ?_
  have el : lidx_main_v22 (ix2 n c) j = ix2 n j :=
    funext fun a => Fin.ext (by match a with | ⟨0, _⟩ => rfl | ⟨1, _⟩ => rfl)
  have er : ridx_main_v22 (ix2 n c) j = ix2 j c :=
    funext fun a => Fin.ext (by match a with | ⟨0, _⟩ => rfl | ⟨1, _⟩ => rfl)
  rw [el, er, val_main_v21_apply, val_main_v17_apply, val_main_v20_apply, val_main_v18_apply, val_main_v19_apply,
    val_main_cst_3_apply, score_eq]
  simp only [Ideal.mulf_def, Ideal.hostUnary_sign_def, Ideal.hostPowf_def, Ideal.hostAbsf_def, Ideal.absf_def,
    Ideal.ofBits_def, Cert.EchoLaw.ofBits_three]
  rw [← Cert.EchoLaw.cube_eq_sign_mul_pow]
  rfl

end Cert.EchoReference

end
-- ==== Proof.lean ====
/-
  The idealized kernel and the idealized reference compute one function of the three argument arrays.

  Both normalise every row of X and of D by the larger of its euclidean norm and a positive floor, take the inner
  products of the normalised rows as scores, turn every score into its cube, and sum the cubes against E over the
  16384 stored rows. The reference spells the cube as sign(s) * |s| ^ 3 and sums over all stored rows at once; the
  kernel spells it s * s * s and adds 32 partial sums of 512 stored rows each into an accumulator that starts at zero.
  On the extended reals the two spellings of the cube agree at every value (CubeLaw), and a sum may be regrouped
  (EchoBlocks), so no finiteness of the inputs is used: the precondition is never opened. The kernel's side is the
  induction over the grid in GridRun, the reference's side the operation-by-operation reading in ReferenceEcho. The
  three frames are the generated ones (the reference's is its generated run with the result dropped), and the ideal
  pass rewrote nothing, so the kernel's idealization is the kernel's own text.
-/
import proofs.«153603_j37211596652565_2_alg».proof.Defs
import proofs.«153603_j37211596652565_2_alg».proof.Proof.Gen.Kernel
import proofs.«153603_j37211596652565_2_alg».proof.Proof.Gen.Kernel.Skeleton
import proofs.«153603_j37211596652565_2_alg».proof.Proof.Gen.Kernel.Launch
import proofs.«153603_j37211596652565_2_alg».proof.Proof.Gen.Kernel.Points
import proofs.«153603_j37211596652565_2_alg».proof.Proof.Gen.Kernel.Frame
import proofs.«153603_j37211596652565_2_alg».proof.Proof.Gen.KernelIdeal
import proofs.«153603_j37211596652565_2_alg».proof.Proof.Gen.KernelIdeal.Skeleton
import proofs.«153603_j37211596652565_2_alg».proof.Proof.Gen.KernelIdeal.Launch
import proofs.«153603_j37211596652565_2_alg».proof.Proof.Gen.KernelIdeal.Points
import proofs.«153603_j37211596652565_2_alg».proof.Proof.Gen.KernelIdeal.Frame
import proofs.«153603_j37211596652565_2_alg».proof.Proof.Gen.ReferenceIdeal
import proofs.«153603_j37211596652565_2_alg».proof.Proof.Gen.Pre_finite_inputs
import proofs.«153603_j37211596652565_2_alg».proof.Proof.Gen.KernelIdeal.Value
import proofs.«153603_j37211596652565_2_alg».proof.Proof.Gen.ReferenceIdeal.Run
import proofs.«153603_j37211596652565_2_alg».proof.Proof.Gen.ReferenceIdeal.Read
import proofs.«153603_j37211596652565_2_alg».proof.Proof.GridRun
import proofs.«153603_j37211596652565_2_alg».proof.Proof.ReferenceEcho
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments, the idealized kernel and the idealized reference both end with the echo
    function of the arguments in their result arrays. -/
theorem algebraic : Cert.algebraic_KernelIdeal_ReferenceIdeal := by
  intro m ρ m' ρ' _ hagree
  refine ⟨fun c => Cert.EchoSpec.echo (Cert.EchoKernel.argX m c) (Cert.EchoKernel.argD m c) (Cert.EchoKernel.argE m c),
    Cert.EchoKernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.EchoReference.result_eq_echo, (hagree c).1, (hagree c).2.1,
    (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
